-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S2x1x1 : Shape := ⟨3, ![2, 1, 1]⟩
abbrev S2x3x512x512 : Shape := ⟨4, ![2, 3, 512, 512]⟩
abbrev S1x1x1 : Shape := ⟨3, ![1, 1, 1]⟩
abbrev S2x3x64x512 : Shape := ⟨4, ![2, 3, 64, 512]⟩
abbrev S2x64x512 : Shape := ⟨3, ![2, 64, 512]⟩
abbrev S2x64 : Shape := ⟨2, ![2, 64]⟩
abbrev S2x64x1 : Shape := ⟨3, ![2, 64, 1]⟩
abbrev S2x1 : Shape := ⟨2, ![2, 1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2x3x512x512, .f32⟩
  | .local _ .vmem, ⟨1, _⟩ => ⟨S2x3x512x512, .f32⟩
  | .local _ .vmem, ⟨2, _⟩ => ⟨S2x3x512x512, .f32⟩
  | .local _ .vmem, ⟨3, _⟩ => ⟨S2x3x512x512, .f32⟩
  | .local _ .vmem, ⟨4, _⟩ => ⟨S1x1x1, .f32⟩
  | .local _ .vmem, ⟨5, _⟩ => ⟨S1x1x1, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v4 : BitVec 32 := Scalar.muli arg5 c1_i32_3
  let v5 : BitVec 32 := Scalar.addi c0_i32_4 v4
  let c64_i32 : BitVec 32 := 64#32
  let v6 : BitVec 32 := Scalar.muli v5 c64_i32
  v6
def k0_off1 (k0_t1 : Fin k0_t1_loop.trips) : Fin 4 → Nat :=
  let c0 : Index := 0#32
  let c0_5 : Index := 0#32
  let c0_i32_4 : BitVec 32 := 0#32
  let c0_i32_1 : BitVec 32 := 0#32
  let c1_i32 : BitVec 32 := 1#32
  let arg5 : BitVec 32 := Scf.iv c0_i32_1 c1_i32 k0_t1
  let c1_i32_3 : BitVec 32 := 1#32
  let v4 : BitVec 32 := Scalar.muli arg5 c1_i32_3
  let v5 : BitVec 32 := Scalar.addi c0_i32_4 v4
  let c64_i32 : BitVec 32 := 64#32
  let v6 : BitVec 32 := Scalar.muli v5 c64_i32
  let v7 : BitVec 32 := v6
  let v8 : Index := Scalar.indexCast v7
  let c0_6 : Index := 0#32
  ![0, 0, v8.toNat, 0]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  h_S2x3x64x512 : 0 < S2x3x64x512.numel
  reduces_S2x3x64x512_S2x64x512 : S2x3x64x512.Reduces [1] S2x64x512
  reduces_S2x64x512_S2x64 : S2x64x512.Reduces [2] S2x64
  shapeCasts_S2x64_S2x64x1 : S2x64.ShapeCasts S2x64x1
  reduces_S2x64x1_S2x1 : S2x64x1.Reduces [1] S2x1
  shapeCasts_S2x1_S2x1x1 : S2x1.ShapeCasts S2x1x1
  reduces_S2x1x1_S1x1 : S2x1x1.Reduces [0] S1x1
  shapeCasts_S1x1_S1x1x1 : S1x1.ShapeCasts S1x1x1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S2x3x64x512.size a ≤ S2x3x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S32x3x512x512.size a
  hwx0_0 : ∀ i : grid0.Coords, EltTy.bits .f32 = 32 ∨ (Rect.block (s := S32x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x3x512x512.size a ≤ S32x3x512x512.size a
  hwx0_1 : ∀ i : grid0.Coords, EltTy.bits .f32 = 32 ∨ (Rect.block (s := S32x3x512x512) S2x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x512x512 : Shape := ⟨3, ![32, 512, 512]⟩

abbrev nBuf : Space → Nat
  | .hbm => 62
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S_, .f32⟩
  | .hbm, ⟨6, _⟩ => ⟨S32x3x512x512, .f32⟩
  | .hbm, ⟨7, _⟩ => ⟨S32x3x512x512, .f32⟩
  | .hbm, ⟨8, _⟩ => ⟨S_, .f32⟩
  | .hbm, ⟨9, _⟩ => ⟨S32x512x512, .f32⟩
  | .hbm, ⟨10, _⟩ => ⟨S_, .f32⟩
  | .hbm, ⟨11, _⟩ => ⟨S32x512x512, .f32⟩
  | .hbm, ⟨12, _⟩ => ⟨S32x512x512, .f32⟩
  | .hbm, ⟨13, _⟩ => ⟨S_, .f32⟩
  | .hbm, ⟨14, _⟩ => ⟨S32x512x512, .f32⟩
  | .hbm, ⟨15, _⟩ => ⟨S32x512x512, .i1⟩
  | .hbm, ⟨16, _⟩ => ⟨S_, .f32⟩
  | .hbm, ⟨17, _⟩ => ⟨S_, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512x512, .f32⟩
  | .hbm, ⟨22, _⟩ => ⟨S32x512x512, .i1⟩
  | .hbm, ⟨23, _⟩ => ⟨S32x512x512, .f32⟩
  | .hbm, ⟨24, _⟩ => ⟨S_, .f32⟩
  | .hbm, ⟨25, _⟩ => ⟨S_, .f32⟩
  | .hbm, ⟨26, _⟩ => ⟨S32x512x512, .f32⟩
  | .hbm, ⟨27, _⟩ => ⟨S32x512x512, .f32⟩
  | .hbm, ⟨28, _⟩ => ⟨S_, .f32⟩
  | .hbm, ⟨29, _⟩ => ⟨S32x3x512x512, .f32⟩
  | .hbm, ⟨30, _⟩ => ⟨S32x3x512x512, .f32⟩
  | .hbm, ⟨31, _⟩ => ⟨S_, .f32⟩
  | .hbm, ⟨32, _⟩ => ⟨S32x3x512x512, .f32⟩
  | .hbm, ⟨33, _⟩ => ⟨S32x3x512x512, .f32⟩
  | .hbm, ⟨34, _⟩ => ⟨S_, .f32⟩
  | .hbm, ⟨35, _⟩ => ⟨S32x512x512, .f32⟩
  | .hbm, ⟨36, _⟩ => ⟨S_, .f32⟩
  | .hbm, ⟨37, _⟩ => ⟨S32x512x512, .f32⟩
  | .hbm, ⟨38, _⟩ => ⟨S32x512x512, .f32⟩
  | .hbm, ⟨39, _⟩ => ⟨S_, .f32⟩
  | .hbm, ⟨40, _⟩ => ⟨S32x512x512, .f32⟩
  | .hbm, ⟨41, _⟩ => ⟨S32x512x512, .i1⟩
  | .hbm, ⟨42, _⟩ => ⟨S_, .f32⟩
  | .hbm, ⟨43, _⟩ => ⟨S_, .f32⟩
  | .hbm, ⟨44, _⟩ => ⟨S32x512x512, .f32⟩
  | .hbm, ⟨45, _⟩ => ⟨S32x512x512, .f32⟩
  | .hbm, ⟨46, _⟩ => ⟨S_, .f32⟩
  | .hbm, ⟨47, _⟩ => ⟨S32x512x512, .f32⟩
  | .hbm, ⟨48, _⟩ => ⟨S32x512x512, .i1⟩
  | .hbm, ⟨49, _⟩ => ⟨S32x512x512, .f32⟩
  | .hbm, ⟨50, _⟩ => ⟨S_, .f32⟩
  | .hbm, ⟨51, _⟩ => ⟨S_, .f32⟩
  | .hbm, ⟨52, _⟩ => ⟨S32x512x512, .f32⟩
  | .hbm, ⟨53, _⟩ => ⟨S32x512x512, .f32⟩
  | .hbm, ⟨54, _⟩ => ⟨S32x512x512, .f32⟩
  | .hbm, ⟨55, _⟩ => ⟨S32x512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_cst_4 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_cst_7 : Ref sig .tc := ⟨.hbm, 28, rfl⟩
abbrev main_v14 : Ref sig .tc := ⟨.hbm, 29, rfl⟩
abbrev main_v15 : Ref sig .tc := ⟨.hbm, 30, rfl⟩
abbrev main_cst_8 : Ref sig .tc := ⟨.hbm, 31, rfl⟩
abbrev main_v16 : Ref sig .tc := ⟨.hbm, 32, rfl⟩
abbrev main_v17 : Ref sig .tc := ⟨.hbm, 33, rfl⟩
abbrev main_cst_9 : Ref sig .tc := ⟨.hbm, 34, rfl⟩
abbrev main_v18 : Ref sig .tc := ⟨.hbm, 35, rfl⟩
abbrev main_cst_10 : Ref sig .tc := ⟨.hbm, 36, rfl⟩
abbrev main_v19 : Ref sig .tc := ⟨.hbm, 37, rfl⟩
abbrev main_v20 : Ref sig .tc := ⟨.hbm, 38, rfl⟩
abbrev main_cst_11 : Ref sig .tc := ⟨.hbm, 39, rfl⟩
abbrev main_v21 : Ref sig .tc := ⟨.hbm, 40, rfl⟩
abbrev main_v22 : Ref sig .tc := ⟨.hbm, 41, rfl⟩
abbrev main_cst_12 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_cst_13 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_14 : Ref sig .tc := ⟨.hbm, 50, rfl⟩
abbrev main_call3_v0 : Ref sig .tc := ⟨.hbm, 51, rfl⟩
abbrev main_call3_v1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_15 : Ref sig .tc := ⟨.hbm, 56, rfl⟩
abbrev main_v30 : Ref sig .tc := ⟨.hbm, 57, rfl⟩
abbrev main_cst_16 : Ref sig .tc := ⟨.hbm, 58, rfl⟩
abbrev main_v31 : Ref sig .tc := ⟨.hbm, 59, rfl⟩
abbrev main_cst_17 : Ref sig .tc := ⟨.hbm, 60, rfl⟩
abbrev main_v32 : Ref sig .tc := ⟨.hbm, 61, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x512x512_d1 : S32x3x512x512.ReducesTo [1] S32x512x512
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_

variable [Facts₀]

class Facts : Prop extends Facts₀ where

variable [Facts]
-- ==== Proof.LibLastWholeStore.lean ====
/-
  A buffer read after a list of stores whose LAST one covered the whole of it.

  Whatever was stored before, and whatever the buffer held, a read of the whole buffer after a store of the whole buffer
  (the unit-stride rectangle at zero offsets of the buffer's own sizes) is the stored value. This is what an accumulator
  that is loaded, updated and stored back whole at every step reads as.
-/
import Idealize.ShloMosaic.Lib.Pipeline.Value

namespace Cert.LibLastWholeStore

open Idealize.ShloMosaic

/-- A read of a buffer whose LAST write covered the whole of it is that write's value, whatever was written before. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end Cert.LibLastWholeStore
-- ==== Proof.KernelTrip.lean ====
/-
  What the kernel's body leaves in its one-element output block.

  The body optionally stores 0 into the block (first step of a sweep), then runs eight trips; trip k loads rows
  64k … 64k+63 of both input blocks, computes one number from them and ADDS it to the block (a load of the block, an
  add, a store of the whole block). So after the trips the block holds its entry value a₀ transformed by the eight
  trips in order: a_{k+1} = trip k applied to a_k. This module states that recurrence (`accAt`) and proves that the
  block's contents after the body are `accAt … 8`, from the zero in the first case and from what the block held on
  entry in the other.
-/
import proofs.«135027_j60035052863713_2_alg».proof.Proof.Gen.KernelIdeal.Frame
import proofs.«135027_j60035052863713_2_alg».proof.Proof.LibLastWholeStore
import Idealize.ShloMosaic.Lib.Pipeline.Value
import Idealize.ShloMosaic.Lib.Tactic

noncomputable section

open Idealize.ShloMosaic Idealize.ShloMosaic.TcCoe Idealize.SL.Sem

namespace Cert.KernelIdeal.Trip

open Cert.KernelIdeal Cert.KernelIdeal.Gen Cert.LibLastWholeStore

variable {F : FTy → Type} [FloatOps F]

theorem hz : (![0, 0, 0] : Fin 3 → Nat) = fun _ => 0 := funext fun a => by fin_cases a <;> rfl

/-- The loop has eight trips. -/
theorem trips_eq : k0_t1_loop.trips = 8 := by decide +kernel

/-- The block after trip `k`, from the rows 64k … 64k+63 of the two input blocks `x`, `y` and the block before. -/
def tripVal (x y : Vec F S2x3x512x512 .f32) (k : Fin k0_t1_loop.trips) (acc : Vec F S1x1x1 .f32) : Vec F S1x1x1 .f32 :=
  k0_pay2 (k0_pay3 (View.ld x (Rect.unit (s := S2x3x512x512) (k0_off1 k) S2x3x64x512.size (k0_off1_inb k))))
    (k0_pay4 (View.ld y (Rect.unit (s := S2x3x512x512) (k0_off1 k) S2x3x64x512.size (k0_off1_inb k)))) acc

/-- The block before trip `n`, from its entry value `a₀`. -/
def accAt (x y : Vec F S2x3x512x512 .f32) (a₀ : Vec F S1x1x1 .f32) : ℕ → Vec F S1x1x1 .f32
  | 0 => a₀
  | n + 1 => if h : n < k0_t1_loop.trips then tripVal x y ⟨n, h⟩ (accAt x y a₀ n) else accAt x y a₀ n

theorem accAt_succ (x y : Vec F S2x3x512x512 .f32) (a₀ : Vec F S1x1x1 .f32) (k : Fin k0_t1_loop.trips) :
    accAt x y a₀ (k.val + 1) = tripVal x y k (accAt x y a₀ k.val) := by
  rw [accAt]; exact dif_pos k.isLt

section Pieces

variable (𝒱 : Variants) (c : Dev nD) (bd : Option 𝒱.V) (i : grid0.Coords)
  (a2 : Memref sig .tc .vmem S2x3x512x512 .f32) (h2 : a2.IsWhole)
  (a3 : Memref sig .tc .vmem S2x3x512x512 .f32) (h3 : a3.IsWhole)
  (a4 : Memref sig .tc .vmem S1x1x1 .f32) (h4 : a4.IsWhole)
  (X2 : BufTy.Contents (Elt F) a2.view.ty) (X3 : BufTy.Contents (Elt F) a3.view.ty)

/-- One trip writes one piece: the whole block, at the trip's value of what it finds there. -/
theorem tripL_eq (k : Fin k0_t1_loop.trips) (f : BufTy.Contents (Elt F) a4.view.ty) :
    tripL_k0_t1 (F := F) 𝒱 c bd i a2 h2 a3 h3 a4 h4 X2 X3 k f
      = [⟨Rect.unit (s := S1x1x1) ![0, 0, 0] S1x1x1.size inb_S1x1x1_S1x1x1_0_0_0,
          tripVal (a2.view.read (Elt F) X2) (a3.view.read (Elt F) X3) k (a4.view.read (Elt F) f)⟩] := by
  unfold tripL_k0_t1 trip_k0_t1
  dsimp only
  sl_unfold_words
  simp only [View.readAt_eq_ld, View.ld_unit_zero (S := S1x1x1) hz]
  rfl

variable (G : BufTy.Contents (Elt F) a4.view.ty)

/-- The pieces of the first `k + 1` trips: the last trip's whole-block piece in front, at the recurrence's value. -/
theorem pb_succ_eq : ∀ (k : ℕ) (hk : k < k0_t1_loop.trips),
    pb_k0_t1 (F := F) 𝒱 c bd i a2 h2 a3 h3 a4 h4 X2 X3 G (k + 1)
      = ⟨Rect.unit (s := S1x1x1) ![0, 0, 0] S1x1x1.size inb_S1x1x1_S1x1x1_0_0_0,
          accAt (a2.view.read (Elt F) X2) (a3.view.read (Elt F) X3) (a4.view.read (Elt F) G) (k + 1)⟩
        :: pb_k0_t1 (F := F) 𝒱 c bd i a2 h2 a3 h3 a4 h4 X2 X3 G k
  | 0, hk => by
    rw [pb_k0_t1_succ 𝒱 c bd i a2 h2 a3 h3 a4 h4 X2 X3 G ⟨0, hk⟩, tripL_eq, accAt_succ _ _ _ ⟨0, hk⟩]
    rfl
  | k + 1, hk => by
    rw [pb_k0_t1_succ 𝒱 c bd i a2 h2 a3 h3 a4 h4 X2 X3 G ⟨k + 1, hk⟩, tripL_eq, accAt_succ _ _ _ ⟨k + 1, hk⟩]
    dsimp only
    rw [pb_succ_eq k (Nat.lt_of_succ_lt hk), read_writes_cons_whole _ _ hz]
    rfl

end Pieces

/-- SECOND CASE (the block is carried over): the body leaves the eight trips applied to what the block held. -/
theorem out_B (c : Dev nD) (i : grid0.Coords) (a2 : Memref sig .tc .vmem S2x3x512x512 .f32) (h2 : a2.IsWhole)
    (a3 : Memref sig .tc .vmem S2x3x512x512 .f32) (h3 : a3.IsWhole) (a4 : Memref sig .tc .vmem S1x1x1 .f32) (h4 : a4.IsWhole)
    (hc : ¬cond0_0 i) (x y : Vec F S2x3x512x512 .f32) (xo : Vec F S1x1x1 .f32) :
    out0_B_2 c i a2 h2 a3 h3 a4 h4 hc x y xo = accAt x y xo 8 := by
  unfold out0_B_2
  unfold kernelRun0_B
  dsimp only
  rw [show Scf.trips (0#32) (Scalar.addi 0#32 8#32) 1#32 = 7 + 1 from trips_eq,
    pb_succ_eq _ _ _ _ _ _ _ _ _ _ _ _ _ 7 (by rw [trips_eq]; decide), read_writes_cons_whole _ _ hz,
    h2.read_unread, h3.read_unread, h4.read_unread]

/-- FIRST CASE (first step of a sweep): the body leaves the eight trips applied to the stored zero. -/
theorem out_A (c : Dev nD) (i : grid0.Coords) (a2 : Memref sig .tc .vmem S2x3x512x512 .f32) (h2 : a2.IsWhole)
    (a3 : Memref sig .tc .vmem S2x3x512x512 .f32) (h3 : a3.IsWhole) (a4 : Memref sig .tc .vmem S1x1x1 .f32) (h4 : a4.IsWhole)
    (hc : cond0_0 i) (x y : Vec F S2x3x512x512 .f32) :
    out0_A_2 c i a2 h2 a3 h3 a4 h4 hc x y = accAt x y (k0_pay1 (F := F)) 8 := by
  unfold out0_A_2
  unfold kernelRun0_A
  dsimp only
  sl_unfold_words
  rw [show Scf.trips (0#32) (Scalar.addi 0#32 8#32) 1#32 = 7 + 1 from trips_eq,
    pb_succ_eq _ _ _ _ _ _ _ _ _ _ _ _ _ 7 (by rw [trips_eq]; decide), List.cons_append, read_writes_cons_whole _ _ hz,
    h2.read_unread, h3.read_unread, read_writes_cons_whole _ _ hz]

end Cert.KernelIdeal.Trip

end
-- ==== Proof.Consts.lean ====
/-
  The float constants the two programs spell, as the extended reals their bit patterns denote: minus and plus
  infinity (the neutral elements of the channel maximum and minimum), -1, 0, 1/2 and 1.
-/
import Idealize.ShloMosaic.PureOps.Ideal

noncomputable section

namespace Cert.Consts

open Idealize.ShloMosaic

/-- The pattern of -inf denotes the bottom of the extended reals. -/
theorem negInf : Ideal.ofBits .f32 0xFF800000#32 = (⊥ : EReal) := by
  simp [Ideal.ofBits, Ideal.ieee]

/-- The pattern of +inf denotes the top. -/
theorem posInf : Ideal.ofBits .f32 0x7F800000#32 = (⊤ : EReal) := by
  simp [Ideal.ofBits, Ideal.ieee]

/-- `+0.0` denotes the real 0. -/
theorem zero : Ideal.ofBits .f32 0x00000000#32 = ((0 : ℝ) : EReal) := by
  simp [Ideal.ofBits, Ideal.ieee]

/-- `1.0` denotes the real 1. -/
theorem one : Ideal.ofBits .f32 0x3F800000#32 = ((1 : ℝ) : EReal) := by
  simp [Ideal.ofBits, Ideal.ieee, -EReal.coe_mul]; norm_num

/-- `-1.0` denotes the real -1. -/
theorem negOne : Ideal.ofBits .f32 0xBF800000#32 = ((-1 : ℝ) : EReal) := by
  simp [Ideal.ofBits, Ideal.ieee, -EReal.coe_mul]; norm_num

/-- `0.5` denotes the real 1/2. -/
theorem half : Ideal.ofBits .f32 0x3F000000#32 = ((1 / 2 : ℝ) : EReal) := by
  simp [Ideal.ofBits, Ideal.ieee, -EReal.coe_mul]; norm_num

end Cert.Consts

end
-- ==== Proof.Sat.lean ====
/-
  The saturation of one pixel, on the extended reals, in the two forms the programs compute it.

  A pixel has three channel values x₀, x₁, x₂. Write M = max xₖ and m = min xₖ.
    * The kernel's form works on the raw values: where M > -1 it is (M - m) / (M + 1), elsewhere 0.
    * The reference's form first maps every channel through φ(x) = (x + 1) · 1/2, takes V = max φ(xₖ) and
      W = min φ(xₖ), and where V > 0 it is (V - W) / V, elsewhere 0.
  φ is increasing, so V = φ(M) and W = φ(m); hence V > 0 exactly when M > -1, and there
  (V - W) / V = ((M - m)/2) / ((M + 1)/2) = (M - m) / (M + 1). The cancellation of the factor 1/2 is a law of the
  reals, not of the extended reals, so it is stated for FINITE channel values.
-/
import Idealize.ShloMosaic.PureOps.Ideal
import Idealize.ShloMosaic.PureOps.Ideal.Laws
import proofs.«135027_j60035052863713_2_alg».proof.Proof.Consts

noncomputable section

namespace Cert.Sat

open Idealize.ShloMosaic

/-- A fold of a commutative, associative operation over three indices, written out. -/
theorem fold3 {α : Type*} (op : α → α → α) [Std.Commutative op] [Std.Associative op] (b : α) (f : Fin 3 → α) :
    (Finset.univ : Finset (Fin 3)).fold op b f = op (f 0) (op (f 1) (op (f 2) b)) := by
  rw [show (Finset.univ : Finset (Fin 3)) = insert 0 (insert 1 {2}) from by decide,
    Finset.fold_insert (by decide), Finset.fold_insert (by decide), Finset.fold_singleton]

/-- The largest of three channel values (a maximum started from -inf). -/
def hi (f : Fin 3 → EReal) : EReal := (Finset.univ : Finset (Fin 3)).fold max (Ideal.ofBits .f32 0xFF800000#32) f

/-- The smallest of three channel values (a minimum started from +inf). -/
def lo (f : Fin 3 → EReal) : EReal := (Finset.univ : Finset (Fin 3)).fold min (Ideal.ofBits .f32 0x7F800000#32) f

/-- The kernel's saturation of a pixel: (M - m) / (M + 1) where M > -1, else 0; the divisor is 1 where the
    quotient is not used. -/
def satK (f : Fin 3 → EReal) : EReal :=
  Scalar.select (Ideal.cmp .ogt (hi f) (Ideal.ofBits .f32 0xBF800000#32))
    (Ideal.div (hi f - lo f)
      (Scalar.select (Ideal.cmp .ogt (hi f) (Ideal.ofBits .f32 0xBF800000#32))
        (hi f + Ideal.ofBits .f32 0x3F800000#32) (Ideal.ofBits .f32 0x3F800000#32)))
    (Ideal.ofBits .f32 0x00000000#32)

/-- The reference's map of a channel value from [-1, 1] to [0, 1]: (x + 1) · 1/2. -/
def scaled (f : Fin 3 → EReal) : Fin 3 → EReal :=
  fun k => (f k + Ideal.ofBits .f32 0x3F800000#32) * Ideal.ofBits .f32 0x3F000000#32

/-- The reference's saturation of a pixel: (V - W) / V where V > 0, else 0, of the mapped channels. -/
def satR (f : Fin 3 → EReal) : EReal :=
  Scalar.select (Ideal.cmp .ogt (hi (scaled f)) (Ideal.ofBits .f32 0x00000000#32))
    (Ideal.div (hi (scaled f) - lo (scaled f))
      (Scalar.select (Ideal.cmp .ogt (hi (scaled f)) (Ideal.ofBits .f32 0x00000000#32))
        (hi (scaled f)) (Ideal.ofBits .f32 0x3F800000#32)))
    (Ideal.ofBits .f32 0x00000000#32)

/-- A select on "x > y" is an if-then-else on the order. -/
theorem sel_gt {α : Type} (x y : EReal) (A B : α) :
    Scalar.select (Ideal.cmp .ogt x y) A B = if y < x then A else B := by
  unfold Scalar.select Ideal.cmp
  by_cases h : y < x <;> simp [h]

/-- Three real channel values: their maximum is the real maximum. -/
theorem hi_coe (f : Fin 3 → EReal) (a b c : ℝ) (ha : f 0 = a) (hb : f 1 = b) (hc : f 2 = c) :
    hi f = ((max a (max b c) : ℝ) : EReal) := by
  unfold hi
  rw [fold3, ha, hb, hc, Consts.negInf, max_eq_left (bot_le : (⊥ : EReal) ≤ (c : EReal)),
    EReal.coe_strictMono.monotone.map_max, EReal.coe_strictMono.monotone.map_max]

/-- Three real channel values: their minimum is the real minimum. -/
theorem lo_coe (f : Fin 3 → EReal) (a b c : ℝ) (ha : f 0 = a) (hb : f 1 = b) (hc : f 2 = c) :
    lo f = ((min a (min b c) : ℝ) : EReal) := by
  unfold lo
  rw [fold3, ha, hb, hc, Consts.posInf, min_eq_left (le_top : (c : EReal) ≤ (⊤ : EReal)),
    EReal.coe_strictMono.monotone.map_min, EReal.coe_strictMono.monotone.map_min]

/-- The reference's channel map on the reals. -/
def φ (x : ℝ) : ℝ := (x + 1) * (1 / 2)

theorem φ_mono : Monotone φ := fun x y h => by unfold φ; linarith

theorem scaled_coe (f : Fin 3 → EReal) (k : Fin 3) (a : ℝ) (ha : f k = a) : scaled f k = ((φ a : ℝ) : EReal) := by
  unfold scaled φ
  rw [ha, Consts.one, Consts.half, ← EReal.coe_add, ← EReal.coe_mul]

/-- THE LAW: on finite channel values the two forms of the saturation agree. -/
theorem satK_eq_satR (f : Fin 3 → EReal) (hf : ∀ k, ∃ r : ℝ, f k = (r : EReal)) : satK f = satR f := by
  obtain ⟨a, ha⟩ := hf 0
  obtain ⟨b, hb⟩ := hf 1
  obtain ⟨c, hc⟩ := hf 2
  have hM := hi_coe f a b c ha hb hc
  have hm := lo_coe f a b c ha hb hc
  have hV := hi_coe (scaled f) (φ a) (φ b) (φ c) (scaled_coe f 0 a ha) (scaled_coe f 1 b hb) (scaled_coe f 2 c hc)
  have hW := lo_coe (scaled f) (φ a) (φ b) (φ c) (scaled_coe f 0 a ha) (scaled_coe f 1 b hb) (scaled_coe f 2 c hc)
  rw [← φ_mono.map_max, ← φ_mono.map_max] at hV
  rw [← φ_mono.map_min, ← φ_mono.map_min] at hW
  generalize max a (max b c) = M at hM hV
  generalize min a (min b c) = m at hm hW
  unfold satK satR
  rw [hM, hm, hV, hW, Consts.negOne, Consts.one, Consts.zero]
  simp only [sel_gt, EReal.coe_lt_coe_iff]
  have hφ : (0 < φ M) ↔ (-1 < M) := by unfold φ; constructor <;> intro h <;> linarith
  by_cases h : -1 < M
  · rw [if_pos h, if_pos h, if_pos (hφ.mpr h), if_pos (hφ.mpr h)]
    have h1 : M + 1 ≠ 0 := by linarith
    have h2 : φ M ≠ 0 := (hφ.mpr h).ne'
    rw [← EReal.coe_add, ← EReal.coe_sub, ← EReal.coe_sub, Ideal.div_coe h1, Ideal.div_coe h2, ← EReal.coe_mul, ← EReal.coe_mul]
    congr 1
    unfold φ at h2 ⊢
    field_simp
    ring
  · rw [if_neg h, if_neg (fun h' => h (hφ.mp h'))]

end Cert.Sat

end
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.Spec.lean ====
/-
  What both programs compute, as one function of the two argument arrays g, t : [32, 3, 512, 512].

  For a pixel (n, h, l) let s(x) be the saturation of x's three channel values there. The loss is
      ( ∑ over all pixels of |s(g) - s(t)| ) / 2^23,
  the sum taken over the 32·512·512 pixels. The reference sums over the pixel index directly; the kernel sums
  block by block: p (2 halves of the batch), b (8 blocks of two samples), k (8 chunks of 64 rows), then inside a
  chunk the sample bb, the row r and the lane l, the pixel being (2·(8p + b) + bb, 64k + r, l). The two orders give
  the same sum in any commutative monoid (`sum_reorder`), so on the extended reals with no finiteness asked.
-/
import Idealize.ShloMosaic.Lib.ValueIdx
import proofs.«135027_j60035052863713_2_alg».proof.Proof.Sat
import proofs.«135027_j60035052863713_2_alg».proof.Proof.LibBlockedSum

noncomputable section

namespace Cert.Spec

open Idealize.ShloMosaic Idealize.ShloMosaic.ValueIdx Cert.Sat

/-- An argument array at `Ideal`. -/
abbrev Arr : Type := (⟨4, ![32, 3, 512, 512]⟩ : Shape).Idx → EReal

/-- The index of channel `ch` of the pixel with natural coordinates (n, h, l) (reduced into range, so that the
    pixel is a total function of three naturals). -/
abbrev at4 (n : ℕ) (ch : Fin 3) (h l : ℕ) : (⟨4, ![32, 3, 512, 512]⟩ : Shape).Idx :=
  ix4 (⟨n % 32, Nat.mod_lt _ (by decide)⟩ : Fin 32) ch (⟨h % 512, Nat.mod_lt _ (by decide)⟩ : Fin 512)
    (⟨l % 512, Nat.mod_lt _ (by decide)⟩ : Fin 512)

/-- An index whose coordinates have the given values is that pixel's channel index. -/
theorem eq_at4 (i : (⟨4, ![32, 3, 512, 512]⟩ : Shape).Idx) (n : ℕ) (ch : Fin 3) (h l : ℕ)
    (h0 : (i 0).val = n) (h1 : (i 1).val = ch.val) (h2 : (i 2).val = h) (h3 : (i 3).val = l) : i = at4 n ch h l := by
  have b0 : (i 0).val < 32 := (i 0).isLt
  have b2 : (i 2).val < 512 := (i 2).isLt
  have b3 : (i 3).val < 512 := (i 3).isLt
  funext a
  match a with
  | ⟨0, _⟩ => exact Fin.ext (by show (i 0).val = n % 32; omega)
  | ⟨1, _⟩ => exact Fin.ext h1
  | ⟨2, _⟩ => exact Fin.ext (by show (i 2).val = h % 512; omega)
  | ⟨3, _⟩ => exact Fin.ext (by show (i 3).val = l % 512; omega)

/-- The three channel values of pixel (n, h, l). -/
def px (x : Arr) (n h l : ℕ) : Fin 3 → EReal := fun ch => x (at4 n ch h l)

/-- |u - v| on the extended reals, as both programs compute it. -/
def absdiff (u v : EReal) : EReal := max (u - v) (-(u - v))

/-- The kernel's term of pixel (n, h, l). -/
def dK (x y : Arr) (n h l : ℕ) : EReal := absdiff (satK (px x n h l)) (satK (px y n h l))

/-- The reference's term of pixel (n, h, l). -/
def dR (x y : Arr) (n h l : ℕ) : EReal := absdiff (satR (px x n h l)) (satR (px y n h l))

/-- On finite arrays the two terms agree, pixel by pixel. -/
theorem dK_eq_dR (x y : Arr) (hx : ∀ i, ∃ r : ℝ, x i = (r : EReal)) (hy : ∀ i, ∃ r : ℝ, y i = (r : EReal)) (n h l : ℕ) :
    dK x y n h l = dR x y n h l := by
  unfold dK dR
  rw [satK_eq_satR (px x n h l) (fun k => hx _), satK_eq_satR (px y n h l) (fun k => hy _)]

section Sums

variable {M : Type*} [AddCommMonoid M]

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over all pixels in the reference's order. -/
def sumR (D : ℕ → ℕ → ℕ → M) : M := ∑ j : (⟨3, ![32, 512, 512]⟩ : Shape).Idx, D (j 0).val (j 1).val (j 2).val

/-- The sum over all pixels in the kernel's order. -/
def sumK (D : ℕ → ℕ → ℕ → M) : M :=
  ∑ p : Fin 2, ∑ b : Fin 8, ∑ k : Fin 8, ∑ bb : Fin 2, ∑ r : Fin 64, ∑ l : Fin 512,
    D (2 * (8 * p.val + b.val) + bb.val) (64 * k.val + r.val) l.val

/-- THE REORDERING: the kernel's blocked order and the reference's order give the same sum. -/
theorem sum_reorder (D : ℕ → ℕ → ℕ → M) : sumK D = sumR D := by
  unfold sumK sumR
  rw [sum_idx3]
  show _ = ∑ a : Fin 32, ∑ b : Fin 512, ∑ c : Fin 512, D a.val b.val c.val
  rw [Cert.LibBlockedSum.sum_blocks 16 2 (fun a : Fin (16 * 2) => ∑ b : Fin 512, ∑ c : Fin 512, D a.val b.val c.val),
    Cert.LibBlockedSum.sum_blocks 2 8]
  refine Finset.sum_congr rfl fun p _ => Finset.sum_congr rfl fun b _ => ?_
  rw [Finset.sum_comm]
  simp only [Cert.LibBlockedSum.slot_val]
  refine Finset.sum_congr rfl fun bb _ => ?_
  rw [Cert.LibBlockedSum.sum_blocks 8 64 (fun h : Fin (8 * 64) => ∑ c : Fin 512, D (bb.val + 2 * (b.val + 8 * p.val)) h.val c.val)]
  simp only [Cert.LibBlockedSum.slot_val]
  refine Finset.sum_congr rfl fun k _ => Finset.sum_congr rfl fun r _ => Finset.sum_congr rfl fun l _ => ?_
  congr 1 <;> omega

end Sums

end Cert.Spec

end
-- ==== Proof.LibMinSingle.lean ====
/-
  A minimum over one axis, read at an index.

  On the extended reals a `vector.multi_reduction <minimumf>` over ONE axis is, at each reduced index, the fold of `min`
  from the accumulator's value over that axis's coordinates of the source (the source index being the reduced index with
  the coordinate inserted) — the twin, for a minimum, of the library's `Ideal.multiReduction_maximumf_single`.
-/
import Idealize.ShloMosaic.PureOps.Ideal.Laws

namespace Cert.LibMinSingle

open Idealize.ShloMosaic

/-- A float `vector.multi_reduction <minimumf>` over one axis, read at `Ideal`: the fold of `min` from the accumulator's
    value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.LibMinSingle
-- ==== Proof.KernelChunk.lean ====
/-
  One trip's arithmetic on the extended reals.

  From the chunks x, y : [2, 3, 64, 512] of the two input blocks a trip computes, per pixel (bb, r, l) of the chunk, the
  saturation of x's and of y's three channel values there (a channel maximum and minimum, then the kernel's
  quotient: `Sat.satK`), takes |difference|, and sums it over the lanes l, then the rows r, then the two samples bb;
  the result is added to the one-element block. So the block after the trip is the block before plus
      ∑ bb, ∑ r, ∑ l, |satK(x at (bb, ·, r, l)) - satK(y at (bb, ·, r, l))|.
-/
import proofs.«135027_j60035052863713_2_alg».proof.Proof.Gen.KernelIdeal.Skeleton
import proofs.«135027_j60035052863713_2_alg».proof.Proof.Spec
import proofs.«135027_j60035052863713_2_alg».proof.Proof.LibMinSingle
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Chunk

open Cert.KernelIdeal Cert.KernelIdeal.Gen

/-- The channel index (bb, ch, r, l) is the pixel index (bb, r, l) with the channel inserted on axis 1. -/
theorem lift_ch (bb : Fin 2) (r : Fin 64) (l : Fin 512) (ch : Fin 3) :
    Facts₀.reduces_S2x3x64x512_S2x64x512.lift (ix3 bb r l) ch = ix4 bb ch r l := by
  funext a
  match a with
  | ⟨0, _⟩ => exact Fin.ext rfl
  | ⟨1, _⟩ => exact Fin.ext rfl
  | ⟨2, _⟩ => exact Fin.ext rfl
  | ⟨3, _⟩ => exact Fin.ext rfl

/-- The channel maximum of a chunk at a pixel. -/
theorem chmax_apply (v : FVec Ideal S2x3x64x512 .f32) (hφ : FKind.Formats .f32)
    (hacc : (0xFF800000#32 : BitVec 32) = 0xFF800000#32) (bb : Fin 2) (r : Fin 64) (l : Fin 512) :
    multiReduction .maximumf [1] S2x64x512 v 0xFF800000#32 Facts₀.reduces_S2x3x64x512_S2x64x512 hφ hacc (ix3 bb r l)
      = Sat.hi (fun ch => v (ix4 bb ch r l)) := by
  refine (Ideal.multiReduction_maximumf_single v 0xFF800000#32 Facts₀.reduces_S2x3x64x512_S2x64x512 hφ hacc (ix3 bb r l)).trans ?_
  unfold Sat.hi
  exact congrArg (fun f : Fin 3 → EReal => (Finset.univ : Finset (Fin 3)).fold max (Ideal.ofBits .f32 0xFF800000#32) f)
    (funext fun ch => congrArg v (lift_ch bb r l ch))

/-- The channel minimum of a chunk at a pixel. -/
theorem chmin_apply (v : FVec Ideal S2x3x64x512 .f32) (hφ : FKind.Formats .f32)
    (hacc : (0x7F800000#32 : BitVec 32) = 0x7F800000#32) (bb : Fin 2) (r : Fin 64) (l : Fin 512) :
    multiReduction .minimumf [1] S2x64x512 v 0x7F800000#32 Facts₀.reduces_S2x3x64x512_S2x64x512 hφ hacc (ix3 bb r l)
      = Sat.lo (fun ch => v (ix4 bb ch r l)) := by
  refine (Cert.LibMinSingle.multiReduction_minimumf_single v 0x7F800000#32 Facts₀.reduces_S2x3x64x512_S2x64x512 hφ hacc (ix3 bb r l)).trans ?_
  unfold Sat.lo
  exact congrArg (fun f : Fin 3 → EReal => (Finset.univ : Finset (Fin 3)).fold min (Ideal.ofBits .f32 0x7F800000#32) f)
    (funext fun ch => congrArg v (lift_ch bb r l ch))

/-- The kernel's per-pixel expression, from a channel maximum `M` and minimum `m` of the pixel: its saturation. -/
theorem satK_of (f : Fin 3 → EReal) (M m : EReal) (hM : M = Sat.hi f) (hm : m = Sat.lo f) :
    Scalar.select (FloatOps.cmpf (F := Ideal) (φ := .f32) .ogt M (FloatOps.ofBits .f32 0xBF800000#32))
      (Ideal.div (M - m)
        (Scalar.select (FloatOps.cmpf (F := Ideal) (φ := .f32) .ogt M (FloatOps.ofBits .f32 0xBF800000#32))
          (M + FloatOps.ofBits (F := Ideal) .f32 0x3F800000#32) (FloatOps.ofBits (F := Ideal) .f32 0x3F800000#32)))
      (FloatOps.ofBits (F := Ideal) .f32 0x00000000#32) = Sat.satK f := by
  subst hM hm; rfl

/-- The first chunk's per-pixel value is the kernel's saturation of the pixel's channels. -/
theorem pay3_apply (v : FVec Ideal S2x3x64x512 .f32) (bb : Fin 2) (r : Fin 64) (l : Fin 512) :
    k0_pay3 (F := Ideal) v (ix3 bb r l) = Sat.satK (fun ch => v (ix4 bb ch r l)) := by
  unfold k0_pay3
  simp only [select_apply, cmpf_apply, divf_apply, addf_apply, subf_apply, broadcast_apply]
  exact satK_of _ _ _ (chmax_apply v _ _ bb r l) (chmin_apply v _ _ bb r l)

/-- The second chunk's likewise. -/
theorem pay4_apply (v : FVec Ideal S2x3x64x512 .f32) (bb : Fin 2) (r : Fin 64) (l : Fin 512) :
    k0_pay4 (F := Ideal) v (ix3 bb r l) = Sat.satK (fun ch => v (ix4 bb ch r l)) := by
  unfold k0_pay4
  simp only [select_apply, cmpf_apply, divf_apply, addf_apply, subf_apply, broadcast_apply]
  exact satK_of _ _ _ (chmax_apply v _ _ bb r l) (chmin_apply v _ _ bb r l)

/-- The lane sum at (bb, r). -/
theorem lanes_apply (w : FVec Ideal S2x64x512 .f32) (bb : Fin 2) (r : Fin 64) :
    multiReduction .add [2] S2x64 w 0x00000000#32 Facts₀.reduces_S2x64x512_S2x64 (.inl rfl) rfl (ix2 bb r)
      = ∑ l : Fin 512, w (ix3 bb r l) := by
  refine (Ideal.multiReduction_add_single w 0x00000000#32 Facts₀.reduces_S2x64x512_S2x64 (.inl rfl) rfl (ix2 bb r)).trans ?_
  exact Finset.sum_congr rfl fun l _ => congrArg w (funext fun a => by
    match a with
    | ⟨0, _⟩ => exact Fin.ext rfl
    | ⟨1, _⟩ => exact Fin.ext rfl
    | ⟨2, _⟩ => exact Fin.ext rfl)

/-- The row sum at (bb, ·) of a [2, 64, 1] column. -/
theorem rows_apply (w : FVec Ideal S2x64x1 .f32) (bb : Fin 2) (u : Fin 1) :
    multiReduction .add [1] S2x1 w 0x00000000#32 Facts₀.reduces_S2x64x1_S2x1 (.inl rfl) rfl (ix2 bb u)
      = ∑ r : Fin 64, w (ix3 bb r u) := by
  refine (Ideal.multiReduction_add_single w 0x00000000#32 Facts₀.reduces_S2x64x1_S2x1 (.inl rfl) rfl (ix2 bb u)).trans ?_
  exact Finset.sum_congr rfl fun r _ => congrArg w (funext fun a => by
    match a with
    | ⟨0, _⟩ => exact Fin.ext rfl
    | ⟨1, _⟩ => exact Fin.ext rfl
    | ⟨2, _⟩ => exact Fin.ext rfl)

/-- The sum over the two samples of a [2, 1, 1] column. -/
theorem samples_apply (w : FVec Ideal S2x1x1 .f32) (u u' : Fin 1) :
    multiReduction .add [0] S1x1 w 0x00000000#32 Facts₀.reduces_S2x1x1_S1x1 (.inl rfl) rfl (ix2 u u')
      = ∑ bb : Fin 2, w (ix3 bb u u') := by
  refine (Ideal.multiReduction_add_single w 0x00000000#32 Facts₀.reduces_S2x1x1_S1x1 (.inl rfl) rfl (ix2 u u')).trans ?_
  exact Finset.sum_congr rfl fun bb _ => congrArg w (funext fun a => by
    match a with
    | ⟨0, _⟩ => exact Fin.ext rfl
    | ⟨1, _⟩ => exact Fin.ext rfl
    | ⟨2, _⟩ => exact Fin.ext rfl)

/-- A trailing unit axis added to a [2, 64] array: entry (bb, r, 0) is entry (bb, r). -/
theorem cast_2x64 {α : Type} (w : S2x64.Idx → α) (bb : Fin 2) (r : Fin 64) (u : Fin 1) :
    shapeCast S2x64x1 w Facts₀.shapeCasts_S2x64_S2x64x1 (ix3 bb r u) = w (ix2 bb r) :=
  shapeCast_apply w Facts₀.shapeCasts_S2x64_S2x64x1 (ix3 bb r u) (ix2 bb r) (by
    have hu : u.val = 0 := by omega
    rw [Shape.rowMajor_val_two, Shape.rowMajor_val_three]
    show bb.val * 64 + r.val = (bb.val * 64 + r.val) * 1 + u.val
    omega)

/-- A trailing unit axis added to a [2, 1] array. -/
theorem cast_2x1 {α : Type} (w : S2x1.Idx → α) (bb : Fin 2) (u u' : Fin 1) :
    shapeCast S2x1x1 w Facts₀.shapeCasts_S2x1_S2x1x1 (ix3 bb u u') = w (ix2 bb u) :=
  shapeCast_apply w Facts₀.shapeCasts_S2x1_S2x1x1 (ix3 bb u u') (ix2 bb u) (by
    have hu : u'.val = 0 := by omega
    rw [Shape.rowMajor_val_two, Shape.rowMajor_val_three]
    show bb.val * 1 + u.val = (bb.val * 1 + u.val) * 1 + u'.val
    omega)

/-- A trailing unit axis added to a [1, 1] array. -/
theorem cast_1x1 {α : Type} (w : S1x1.Idx → α) (u u' u'' : Fin 1) :
    shapeCast S1x1x1 w Facts₀.shapeCasts_S1x1_S1x1x1 (ix3 u u' u'') = w (ix2 u u') :=
  shapeCast_apply w Facts₀.shapeCasts_S1x1_S1x1x1 (ix3 u u' u'') (ix2 u u') (by
    have hu : u''.val = 0 := by omega
    rw [Shape.rowMajor_val_two, Shape.rowMajor_val_three]
    show u.val * 1 + u'.val = (u.val * 1 + u'.val) * 1 + u''.val
    omega)

/-- THE TRIP: the block after is the block before plus the chunk's sum of |a - b| over samples, rows and lanes. -/
theorem pay2_apply (a b : FVec Ideal S2x64x512 .f32) (acc : Vec Ideal S1x1x1 .f32) (u u' u'' : Fin 1) :
    k0_pay2 (F := Ideal) a b acc (ix3 u u' u'')
      = acc (ix3 u u' u'') + ∑ bb : Fin 2, ∑ r : Fin 64, ∑ l : Fin 512, Spec.absdiff (a (ix3 bb r l)) (b (ix3 bb r l)) := by
  unfold k0_pay2
  dsimp only
  rw [shapeCast_self]
  refine congrArg (acc (ix3 u u' u'') + ·) ?_
  refine (cast_1x1 _ u u' u'').trans ?_
  refine (samples_apply _ u u').trans ?_
  refine Finset.sum_congr rfl fun bb _ => ?_
  refine (cast_2x1 _ bb u u').trans ?_
  refine (rows_apply _ bb u).trans ?_
  refine Finset.sum_congr rfl fun r _ => ?_
  refine (cast_2x64 _ bb r u).trans ?_
  refine (lanes_apply _ bb r).trans ?_
  exact Finset.sum_congr rfl fun l _ => rfl

end Cert.KernelIdeal.Chunk

end
-- ==== Proof.KernelBlocks.lean ====
/-
  The kernel's input blocks and the eight trips, on the extended reals, in terms of the argument arrays.

  Grid point t (t = 8p + b) stages block t of each argument: the two samples 2t and 2t + 1, all channels, rows and
  lanes. Trip k of the body reads rows 64k … 64k + 63 of the block. So the number trip k adds to the output block at
  point t is
      chunk t k = ∑ bb < 2, ∑ r < 64, ∑ l < 512, |satK(g at pixel (2t + bb, 64k + r, l)) - satK(t at that pixel)|,
  and after the eight trips the block holds its entry value plus ∑ k < 8, chunk t k.
-/
import proofs.«135027_j60035052863713_2_alg».proof.Proof.KernelTrip
import proofs.«135027_j60035052863713_2_alg».proof.Proof.KernelChunk

noncomputable section

open Idealize.ShloMosaic Idealize.ShloMosaic.TcCoe Idealize.SL.Sem Idealize.ShloMosaic.ValueIdx

namespace Cert.KernelIdeal.Blocks

open Cert.KernelIdeal Cert.KernelIdeal.Gen

/-- Pixel indices built from equal coordinates are equal. -/
theorem at4_congr {n n' : ℕ} {ch ch' : Fin 3} {h h' l l' : ℕ} (e0 : n = n') (e1 : ch = ch') (e2 : h = h') (e3 : l = l') :
    Spec.at4 n ch h l = Spec.at4 n' ch' h' l' := by subst e0 e1 e2 e3; rfl

/-- Block `t` of an array: samples 2t and 2t + 1. -/
def blkOf (A : Spec.Arr) (t : ℕ) : Vec Ideal S2x3x512x512 .f32 :=
  fun x => A (Spec.at4 (2 * t + (x 0).val) (x 1) (x 2).val (x 3).val)

/-- A chunk of a block at a channel index: the array at sample 2t + bb, row 64k + r. -/
theorem chunk_apply (A : Spec.Arr) (t : ℕ) (k : Fin k0_t1_loop.trips) (bb : Fin 2) (ch : Fin 3) (r : Fin 64) (l : Fin 512) :
    View.ld (blkOf A t) (Rect.unit (s := S2x3x512x512) (k0_off1 k) S2x3x64x512.size (k0_off1_inb k)) (ix4 bb ch r l)
      = Spec.px A (2 * t + bb.val) (64 * k.val + r.val) l.val ch := by
  have e := k0_off1_eq k
  have e0 : k0_off1 k 0 = 0 := congrFun e 0
  have e1 : k0_off1 k 1 = 0 := congrFun e 1
  have e2 : k0_off1 k 2 = 64 * k.val := congrFun e 2
  have e3 : k0_off1 k 3 = 0 := congrFun e 3
  show A (Spec.at4 _ _ _ _) = A (Spec.at4 _ _ _ _)
  refine congrArg A (at4_congr ?_ (Fin.ext ?_) ?_ ?_)
  · show 2 * t + (k0_off1 k 0 + 1 * bb.val) = 2 * t + bb.val
    rw [e0]; omega
  · show k0_off1 k 1 + 1 * ch.val = ch.val
    rw [e1]; omega
  · show k0_off1 k 2 + 1 * r.val = 64 * k.val + r.val
    rw [e2]; omega
  · show k0_off1 k 3 + 1 * l.val = l.val
    rw [e3]; omega

/-- The number trip `k` adds at grid point `t`. -/
def chunk (A B : Spec.Arr) (t k : ℕ) : EReal :=
  ∑ bb : Fin 2, ∑ r : Fin 64, ∑ l : Fin 512, Spec.dK A B (2 * t + bb.val) (64 * k + r.val) l.val

/-- One trip on blocks of the arrays: the block's value plus the trip's chunk. -/
theorem tripVal_blk (A B : Spec.Arr) (t : ℕ) (k : Fin k0_t1_loop.trips) (acc : Vec Ideal S1x1x1 .f32) (u u' u'' : Fin 1) :
    Trip.tripVal (blkOf A t) (blkOf B t) k acc (ix3 u u' u'') = acc (ix3 u u' u'') + chunk A B t k.val := by
  unfold Trip.tripVal chunk
  rw [Chunk.pay2_apply]
  refine congrArg (acc (ix3 u u' u'') + ·) (Finset.sum_congr rfl fun bb _ => Finset.sum_congr rfl fun r _ =>
    Finset.sum_congr rfl fun l _ => ?_)
  have hA : (fun ch => View.ld (blkOf A t) (Rect.unit (s := S2x3x512x512) (k0_off1 k) S2x3x64x512.size (k0_off1_inb k)) (ix4 bb ch r l))
      = Spec.px A (2 * t + bb.val) (64 * k.val + r.val) l.val := funext fun ch => chunk_apply A t k bb ch r l
  have hB : (fun ch => View.ld (blkOf B t) (Rect.unit (s := S2x3x512x512) (k0_off1 k) S2x3x64x512.size (k0_off1_inb k)) (ix4 bb ch r l))
      = Spec.px B (2 * t + bb.val) (64 * k.val + r.val) l.val := funext fun ch => chunk_apply B t k bb ch r l
  rw [Chunk.pay3_apply, Chunk.pay4_apply, hA, hB]
  rfl

/-- After `n` trips the block holds its entry value plus the first `n` chunks. -/
theorem accAt_blk (A B : Spec.Arr) (t : ℕ) (a₀ : Vec Ideal S1x1x1 .f32) (u u' u'' : Fin 1) :
    ∀ n, n ≤ 8 → Trip.accAt (blkOf A t) (blkOf B t) a₀ n (ix3 u u' u'')
      = a₀ (ix3 u u' u'') + ∑ k ∈ Finset.range n, chunk A B t k
  | 0, _ => by rw [Finset.range_zero, Finset.sum_empty, add_zero]; rfl
  | n + 1, hn => by
    have hk : n < k0_t1_loop.trips := by rw [Trip.trips_eq]; omega
    rw [show Trip.accAt (blkOf A t) (blkOf B t) a₀ (n + 1) = _ from Trip.accAt_succ _ _ a₀ ⟨n, hk⟩, tripVal_blk,
      accAt_blk A B t a₀ u u' u'' n (by omega), Finset.sum_range_succ, add_assoc]

/-- What one grid point adds: its eight chunks. -/
def pointSum (A B : Spec.Arr) (t : ℕ) : EReal := ∑ k ∈ Finset.range 8, chunk A B t k

section AtPoint

variable (m : (ℓ : Loc nD τ sig) → Buf (Elt Ideal) ℓ)

/-- The two argument arrays on core `c`. -/
abbrev argG (c : Dev nD) : Spec.Arr := m ((c : Thread nD τ).loc main_arg0)
abbrev argT (c : Dev nD) : Spec.Arr := m ((c : Thread nD τ).loc main_arg1)

/-- The block index of both input windows at point `t` is `t` on the sample axis and 0 elsewhere. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The first input window's block at point `t` is block `t` of the first argument. -/
theorem iblk0_eq (c : Dev nD) (t : Fin cfg0.N) : (iblk m c 0 t : Vec Ideal S2x3x512x512 .f32) = blkOf (argG m c) t.val := by
  have hi := idx0 t
  funext x
  unfold iblk blkOf
  rw [View.read_apply]
  show m ((c : Thread nD τ).loc main_arg0) _ = m ((c : Thread nD τ).loc main_arg0) _
  refine congrArg _ (Spec.eq_at4 _ _ _ _ _ ?_ ?_ ?_ ?_)
  · show win0_0.index t 0 * 2 + 1 * (x 0).val = 2 * t.val + (x 0).val
    rw [hi.1]; omega
  · show win0_0.index t 1 * 3 + 1 * (x 1).val = (x 1).val
    rw [hi.2.1]; omega
  · show win0_0.index t 2 * 512 + 1 * (x 2).val = (x 2).val
    rw [hi.2.2.1]; omega
  · show win0_0.index t 3 * 512 + 1 * (x 3).val = (x 3).val
    rw [hi.2.2.2]; omega

/-- The second input window's block at point `t` is block `t` of the second argument. -/
theorem iblk1_eq (c : Dev nD) (t : Fin cfg0.N) : (iblk m c 1 t : Vec Ideal S2x3x512x512 .f32) = blkOf (argT m c) t.val := by
  have hi := idx1 t
  funext x
  unfold iblk blkOf
  rw [View.read_apply]
  show m ((c : Thread nD τ).loc main_arg1) _ = m ((c : Thread nD τ).loc main_arg1) _
  refine congrArg _ (Spec.eq_at4 _ _ _ _ _ ?_ ?_ ?_ ?_)
  · show win0_1.index t 0 * 2 + 1 * (x 0).val = 2 * t.val + (x 0).val
    rw [hi.1]; omega
  · show win0_1.index t 1 * 3 + 1 * (x 1).val = (x 1).val
    rw [hi.2.1]; omega
  · show win0_1.index t 2 * 512 + 1 * (x 2).val = (x 2).val
    rw [hi.2.2.1]; omega
  · show win0_1.index t 3 * 512 + 1 * (x 3).val = (x 3).val
    rw [hi.2.2.2]; omega

end AtPoint

end Cert.KernelIdeal.Blocks

end
-- ==== Proof.LibPeriodicTotal.lean ====
/-
  A running total that is reset at the start of every period.

  Steps are counted 0, 1, 2, …; a period has `p + 1` steps. At a step whose number is a multiple of `p + 1` the total is
  set to `0 + g n`; at every other step `g n` is added to what the step before left. Then at the LAST step of period
  `q` — step `(p + 1) * q + p` — the total is the sum of that period's `p + 1` terms, `∑ b, g ((p + 1) * q + b)`
  (`total_period_end`). This is what an accumulator zeroed under "first step of the sweep" and read out under "last step
  of the sweep" holds, one sweep after another on one grid. Everything is stated in a commutative additive monoid: only
  associativity and `0 + x = x` are used, so it holds on the extended reals with no finiteness assumed.
-/
import Mathlib.Algebra.BigOperators.Fin
import Mathlib.Algebra.BigOperators.Intervals

namespace Cert.LibPeriodicTotal

open Finset

variable {M : Type*} [AddCommMonoid M]

/-- The running total after step `n`: reset to `0 + g n` when `n` is a multiple of the period `p + 1`, otherwise the
    step before plus `g n`. -/
def total (p : ℕ) (g : ℕ → M) : ℕ → M
  | 0 => 0 + g 0
  | n + 1 => if (n + 1) % (p + 1) = 0 then 0 + g (n + 1) else total p g n + g (n + 1)

/-- At the first step of a period the total is `0 + g n`. -/
theorem total_reset (p : ℕ) (g : ℕ → M) (n : ℕ) (h : n % (p + 1) = 0) : total p g n = 0 + g n := by
  cases n with
  | zero => rfl
  | succ n => exact if_pos h

/-- At any other step the term is added to the step before. -/
theorem total_step (p : ℕ) (g : ℕ → M) (n : ℕ) (h : ¬(n + 1) % (p + 1) = 0) :
    total p g (n + 1) = total p g n + g (n + 1) := if_neg h

/-- Inside period `q`, after its step number `n ≤ p`, the total is the sum of the period's first `n + 1` terms. -/
theorem total_within (p : ℕ) (g : ℕ → M) (q : ℕ) :
    ∀ n, n ≤ p → total p g ((p + 1) * q + n) = ∑ i ∈ range (n + 1), g ((p + 1) * q + i)
  | 0, _ => by
    rw [total_reset p g _ (by rw [Nat.add_zero, Nat.mul_mod_right]), zero_add, sum_range_one]
  | n + 1, hn => by
    have hne : ¬((p + 1) * q + n + 1) % (p + 1) = 0 := by
      rw [Nat.add_assoc, Nat.mul_add_mod, Nat.mod_eq_of_lt (by omega)]; omega
    rw [show (p + 1) * q + (n + 1) = (p + 1) * q + n + 1 from rfl, total_step p g _ hne,
      total_within p g q n (by omega), sum_range_succ _ (n + 1)]
    rfl

/-- At the last step of period `q` the total is the sum of the period's `p + 1` terms. -/
theorem total_period_end (p : ℕ) (g : ℕ → M) (q : ℕ) :
    total p g ((p + 1) * q + p) = ∑ b : Fin (p + 1), g ((p + 1) * q + b.val) := by
  rw [total_within p g q p (Nat.le_refl p), Finset.sum_range]

end Cert.LibPeriodicTotal
-- ==== Proof.KernelTotal.lean ====
/-
  The kernel's result, on the extended reals, as one function of the two argument arrays.

  Across the grid the one-element output block is an accumulator: at the first point of each sweep of eight (t ≡ 0
  mod 8) the body stores 0 and adds that point's eight chunks; at the other points it adds its chunks to what the point
  before left; the block is written back at the last point of each sweep (t ≡ 7 mod 8), to entry p = t / 8 of the
  [2, 1, 1] result. So entry p holds the sum over its sweep's eight points of their point sums (a running total reset
  every eight steps). After the region the host adds the two entries from 0, multiplies by 1.0 and divides by 2^23.
  Unfolded, the number divided is the sum over all pixels, in the kernel's blocked order (`Spec.sumK`).
-/
import proofs.«135027_j60035052863713_2_alg».proof.Proof.KernelBlocks
import proofs.«135027_j60035052863713_2_alg».proof.Proof.LibPeriodicTotal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Blocks Cert.KernelIdeal.Facts₀

variable (m : (ℓ : Loc nD τ sig) → Buf (Elt Ideal) ℓ) (ρ : Dev nD → PrngReg)

/-- What grid point `t` adds to the accumulator, on core `c`. -/
abbrev gsum (c : Dev nD) : ℕ → EReal := pointSum (argG m c) (argT m c)

/-- The stored zero. -/
theorem pay1_apply (y : S1x1x1.Idx) : k0_pay1 (F := Ideal) y = 0 := by
  show Ideal.ofBits .f32 0x00000000#32 = 0
  exact Ideal.ofBits_zero_f32

/-- THE ACCUMULATOR: after point `n` the output block holds the running total, reset every eight points, of the
    points' sums. -/
theorem outsAt_eq (c : Dev nD) : ∀ (n : ℕ) (hn : n < cfg0.N) (y : S1x1x1.Idx),
    outsAt0 m c n hn y = Cert.LibPeriodicTotal.total 7 (gsum m c) n
  | 0, hn, y => by
    obtain ⟨u, u', u'', rfl⟩ : ∃ (u u' u'' : Fin 1), y = ix3 u u' u'' := ⟨y 0, y 1, y 2, eq_ix3 y⟩
    rw [outsAt0_A m c ⟨0, hn⟩ rfl,
      Trip.out_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
        ((hcond0_0 ⟨0, hn⟩).mpr rfl) (iblk m c 0 ⟨0, hn⟩) (iblk m c 1 ⟨0, hn⟩),
      iblk0_eq m c ⟨0, hn⟩, iblk1_eq m c ⟨0, hn⟩, accAt_blk _ _ _ _ u u' u'' 8 (le_refl 8), pay1_apply]
    rfl
  | n + 1, hn, y => by
    obtain ⟨u, u', u'', rfl⟩ : ∃ (u u' u'' : Fin 1), y = ix3 u u' u'' := ⟨y 0, y 1, y 2, eq_ix3 y⟩
    by_cases h0 : (n + 1) % 8 = 0
    · rw [outsAt0_A m c ⟨n + 1, hn⟩ h0,
        Trip.out_A c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) ((hcond0_0 ⟨n + 1, hn⟩).mpr h0) (iblk m c 0 ⟨n + 1, hn⟩) (iblk m c 1 ⟨n + 1, hn⟩),
        iblk0_eq m c ⟨n + 1, hn⟩, iblk1_eq m c ⟨n + 1, hn⟩, accAt_blk _ _ _ _ u u' u'' 8 (le_refl 8), pay1_apply,
        Cert.LibPeriodicTotal.total_reset 7 (gsum m c) (n + 1) h0]
      rfl
    · rw [outsAt0_B m c ⟨n + 1, hn⟩ h0,
        Trip.out_B c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩)
          (outsAt0 m c ((⟨n + 1, hn⟩ : Fin cfg0.N).val - 1) (Nat.lt_of_le_of_lt (Nat.sub_le _ _) (⟨n + 1, hn⟩ : Fin cfg0.N).isLt)),
        iblk0_eq m c ⟨n + 1, hn⟩, iblk1_eq m c ⟨n + 1, hn⟩, accAt_blk _ _ _ _ u u' u'' 8 (le_refl 8),
        Cert.LibPeriodicTotal.total_step 7 (gsum m c) n h0]
      show outsAt0 m c n _ (ix3 u u' u'') + _ = Cert.LibPeriodicTotal.total 7 (gsum m c) n + _
      rw [outsAt_eq c n (Nat.lt_of_succ_lt hn) (ix3 u u' u'')]
      rfl

/-- The [2, 1, 1] result of the region: entry p is the running total at the last point of sweep p. -/
def outArr (c : Dev nD) : S2x1x1.Idx → EReal := fun i => Cert.LibPeriodicTotal.total 7 (gsum m c) (8 * (i 0).val + 7)

/-- The output window's block index at point `t` is t / 8 on the first axis, 0 elsewhere. -/
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a writing point writes back is its entry of `outArr`. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  obtain ⟨e0, e1, e2⟩ := idx2 t
  show (cfg0.win 2).cut (grid0.coords t) ((dats m 0 c).after 2 t) = _
  rw [after0_2]
  funext y
  rw [View.read_apply]
  refine (outsAt_eq m c t.val t.isLt y).trans ?_
  unfold outArr
  refine congrArg (Cert.LibPeriodicTotal.total 7 (gsum m c)) ?_
  have hy : (y 0).val < 1 := (y 0).isLt
  show t.val = 8 * (win0_2.index t 0 * 1 + 1 * (y 0).val) + 7
  rw [e0]; omega

/-- An index of the result is in point `t`'s block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- THE REGION'S RESULT: the array ends at `outArr` (entry p is written at point 8p + 7). -/
theorem final_out (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 1 := (i 2).isLt
    have hN : cfg0.N = 16 := N_0
    refine ⟨⟨8 * (i 0).val + 7, by omega⟩, (flush0_2 _).mpr (by show (8 * (i 0).val + 7) % 8 = 7; omega), ?_⟩
    obtain ⟨e0, e1, e2⟩ := idx2 ⟨8 * (i 0).val + 7, by omega⟩
    rw [mem_blk]
    intro a
    match a with
    | ⟨0, _⟩ =>
      show win0_2.index _ 0 * 1 ≤ (i 0).val ∧ (i 0).val < win0_2.index _ 0 * 1 + 1
      rw [e0]; show (8 * (i 0).val + 7) / 8 * 1 ≤ (i 0).val ∧ (i 0).val < (8 * (i 0).val + 7) / 8 * 1 + 1; omega
    | ⟨1, _⟩ =>
      show win0_2.index _ 1 * 1 ≤ (i 1).val ∧ (i 1).val < win0_2.index _ 1 * 1 + 1
      rw [e1]; omega
    | ⟨2, _⟩ =>
      show win0_2.index _ 2 * 1 ≤ (i 2).val ∧ (i 2).val < win0_2.index _ 2 * 1 + 1
      rw [e2]; omega

end Cert.KernelIdeal.Total

end
-- ==== Proof.KernelRun.lean ====
/-
  The kernel program's run, read: its result is
      (1.0 · (0 + the sum over all pixels, in the kernel's blocked order)) / 2^23,
  and the arguments are unchanged.

  The region leaves the [2, 1, 1] array of the two sweeps' totals; the host lines after it add the two entries from 0,
  multiply by 1.0 and divide by 2^23. A sweep's total is the sum of its eight points' sums, a point's sum is the sum of
  its eight chunks, a chunk is the sum over its two samples, 64 rows and 512 lanes: written out, the kernel's order.
-/
import proofs.«135027_j60035052863713_2_alg».proof.Proof.KernelTotal
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Run

open Cert.KernelIdeal Cert.KernelIdeal.Gen Cert.KernelIdeal.Blocks Cert.KernelIdeal.Total

variable (m : (ℓ : Loc nD τ sig) → Buf (Elt Ideal) ℓ) (ρ : Dev nD → PrngReg)

/-- The host lines after the region, as one function of the region's result. -/
def tailOf (o : (⟨S2x1x1, .f32⟩ : BufTy).Contents (Elt Ideal)) : (⟨S_, .f32⟩ : BufTy).Contents (Elt Ideal) :=
  Host.divf (F := Ideal) (mulf (F := Ideal) (constant (F := Ideal) S_ .f32 0x3F800000#32)
    (Host.reduceAdd (F := Ideal) o (constant (F := Ideal) S_ .f32 0x00000000#32) reducesTo_S2x1x1_S_d0_1_2 h_S_))
    (constant (F := Ideal) S_ .f32 0x4B000000#32)

/-- The program's result buffer after the run: the host lines applied to the region's result. -/
theorem tail_eq (c : Dev nD) :
    Pipeline.afterTail₀ cfgs (dats m) 0 (V0 m) [hostOps1] c main_v3 = tailOf (outArr m c) := by
  have hw : Pipeline.withArrays (cfgs 0).spec c (V0 m c) (fun w => (dats m 0 c).arrAt w (cfgs 0).N) (Proc.devRef .tc main_v0)
      = outArr m c :=
    (Pipeline.withArrays_arr spec0 launch0.win.arr_inj c _ _ 2).trans (final_out m c)
  unfold Pipeline.afterTail₀
  show StableHlo.after hostOps1 _ (Proc.devRef .tc main_v3) = _
  after_results
  rw [hw]
  rfl

/-- The host's sum of the [2, 1, 1] array from 0. -/
theorem hostSum (o : (⟨S2x1x1, .f32⟩ : BufTy).Contents (Elt Ideal)) (i : S_.Idx) :
    Host.reduceAdd (F := Ideal) o (constant (F := Ideal) S_ .f32 0x00000000#32) reducesTo_S2x1x1_S_d0_1_2 h_S_ i
      = Ideal.ofBits .f32 0x00000000#32 + ∑ j : S2x1x1.Idx, o j := by
  simp only [Host.reduceAdd, Ideal.hostReduceAdd_def]
  exact Ideal.hostReduceAdd_total reducesTo_S2x1x1_S_d0_1_2 (fun b => b.elim0) o _ i

/-- The two sweeps' totals add up to the sum over all pixels in the kernel's order. -/
theorem sum_out (c : Dev nD) : ∑ j : S2x1x1.Idx, outArr m c j = Spec.sumK (Spec.dK (argG m c) (argT m c)) := by
  rw [Spec.sum_idx3]
  unfold Spec.sumK
  refine Finset.sum_congr rfl fun p _ => ?_
  rw [Fin.sum_univ_one, Fin.sum_univ_one]
  show Cert.LibPeriodicTotal.total 7 (gsum m c) ((7 + 1) * p.val + 7) = _
  rw [Cert.LibPeriodicTotal.total_period_end 7 (gsum m c) p.val]
  refine Finset.sum_congr rfl fun b _ => ?_
  show pointSum (argG m c) (argT m c) ((7 + 1) * p.val + b.val) = _
  unfold pointSum chunk
  rw [Finset.sum_range]

/-- The kernel program's result on core `c`. -/
def result (c : Dev nD) : Buf (Elt Ideal) ((c.tc : Thread nD τ).loc main_v3) :=
  fun _ => Ideal.div (Ideal.ofBits .f32 0x3F800000#32
      * (Ideal.ofBits .f32 0x00000000#32 + Spec.sumK (Spec.dK (argG m c) (argT m c)))) (Ideal.ofBits .f32 0x4B000000#32)

/-- The host lines applied to the region's result, in closed form. -/
theorem tail_closed (c : Dev nD) : tailOf (outArr m c) = result m c := by
  funext i
  show Ideal.div (Ideal.ofBits .f32 0x3F800000#32
      * Host.reduceAdd (F := Ideal) (outArr m c) (constant (F := Ideal) S_ .f32 0x00000000#32) reducesTo_S2x1x1_S_d0_1_2 h_S_ i)
      (Ideal.ofBits .f32 0x4B000000#32) = _
  rw [hostSum, sum_out]
  rfl

/-- The result buffer is an unscoped buffer that is no window's array. -/
theorem mem_v3 : main_v3 ∈ Pipeline.restRefs sig (cfgs 0).spec :=
  Pipeline.mem_restRefs_of main_v3 rfl (fun w => by fin_cases w <;> decide)

/-- THE KERNEL PROGRAM'S RUN: every weakly fair execution ends with the result buffer at `result` and the arguments
    unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v3 mem_v3).trans ((tail_eq m c).trans (tail_closed m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Run

end
-- ==== Proof.RefValue.lean ====
/-
  The reference's result, on the extended reals, as one function of the two argument arrays.

  The reference maps every channel value through (x + 1) · 1/2, takes per pixel the channel maximum V and minimum W,
  forms (V - W) / V where V > 0 and 0 elsewhere (`Sat.satR`), does this for both arrays, sums |difference| over all
  pixels from 0, divides by 2^23 and multiplies by 1.0. Read one operation at a time, that is
      1.0 · ((0 + ∑ over pixels of |satR(g) - satR(t)|) / 2^23).
-/
import proofs.«135027_j60035052863713_2_alg».proof.Proof.RefReadP
import proofs.«135027_j60035052863713_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.ReadP

/-- The channel axis is axis 1 of [32, 3, 512, 512]. -/
theorem hred : S32x3x512x512.Reduces [1] S32x512x512 := by decide

/-- The channel index over pixel `j` with channel `ch` inserted. -/
theorem lift_ch (j : S32x512x512.Idx) (ch : Fin 3) : hred.lift j ch = Spec.at4 (j 0).val ch (j 1).val (j 2).val :=
  Spec.eq_at4 _ _ _ _ _ rfl rfl rfl rfl

/-- The mapped channel values of the first array at pixel `j`. -/
theorem scaled0 (x0 : Spec.Arr) (j : S32x512x512.Idx) :
    (val_main_v3 (F := Ideal) x0 ∘ hred.lift j) = Sat.scaled (Spec.px x0 (j 0).val (j 1).val (j 2).val) := by
  funext ch
  exact congrArg (fun z => (x0 z + Ideal.ofBits .f32 0x3F800000#32) * Ideal.ofBits .f32 0x3F000000#32) (lift_ch j ch)

/-- The mapped channel values of the second array at pixel `j`. -/
theorem scaled1 (x1 : Spec.Arr) (j : S32x512x512.Idx) :
    (val_main_v17 (F := Ideal) x1 ∘ hred.lift j) = Sat.scaled (Spec.px x1 (j 0).val (j 1).val (j 2).val) := by
  funext ch
  exact congrArg (fun z => (x1 z + Ideal.ofBits .f32 0x3F800000#32) * Ideal.ofBits .f32 0x3F000000#32) (lift_ch j ch)

/-- The channel maximum of the mapped first array. -/
theorem max0_apply (x0 : Spec.Arr) (j : S32x512x512.Idx) :
    val_main_v4 (F := Ideal) x0 j = Sat.hi (Sat.scaled (Spec.px x0 (j 0).val (j 1).val (j 2).val)) := by
  unfold val_main_v4
  refine (Host.reduce_eq_fold_single (α := EReal) (FloatOps.maximumf (F := Ideal) (φ := .f32)) (val_main_v3 (F := Ideal) x0) (val_main_cst_1 (F := Ideal))
    reducesTo_S32x3x512x512_S32x512x512_d1 hred h_S_ j).trans ?_
  unfold Sat.hi
  exact congrArg (fun f : Fin 3 → EReal => (Finset.univ : Finset (Fin 3)).fold max (Ideal.ofBits .f32 0xFF800000#32) f) (scaled0 x0 j)

/-- The channel minimum of the mapped first array. -/
theorem min0_apply (x0 : Spec.Arr) (j : S32x512x512.Idx) :
    val_main_v5 (F := Ideal) x0 j = Sat.lo (Sat.scaled (Spec.px x0 (j 0).val (j 1).val (j 2).val)) := by
  unfold val_main_v5
  refine (Host.reduce_eq_fold_single (α := EReal) (FloatOps.minimumf (F := Ideal) (φ := .f32)) (val_main_v3 (F := Ideal) x0) (val_main_cst_2 (F := Ideal))
    reducesTo_S32x3x512x512_S32x512x512_d1 hred h_S_ j).trans ?_
  unfold Sat.lo
  exact congrArg (fun f : Fin 3 → EReal => (Finset.univ : Finset (Fin 3)).fold min (Ideal.ofBits .f32 0x7F800000#32) f) (scaled0 x0 j)

/-- The channel maximum of the mapped second array. -/
theorem max1_apply (x1 : Spec.Arr) (j : S32x512x512.Idx) :
    val_main_v18 (F := Ideal) x1 j = Sat.hi (Sat.scaled (Spec.px x1 (j 0).val (j 1).val (j 2).val)) := by
  unfold val_main_v18
  refine (Host.reduce_eq_fold_single (α := EReal) (FloatOps.maximumf (F := Ideal) (φ := .f32)) (val_main_v17 (F := Ideal) x1) (val_main_cst_9 (F := Ideal))
    reducesTo_S32x3x512x512_S32x512x512_d1 hred h_S_ j).trans ?_
  unfold Sat.hi
  exact congrArg (fun f : Fin 3 → EReal => (Finset.univ : Finset (Fin 3)).fold max (Ideal.ofBits .f32 0xFF800000#32) f) (scaled1 x1 j)

/-- The channel minimum of the mapped second array. -/
theorem min1_apply (x1 : Spec.Arr) (j : S32x512x512.Idx) :
    val_main_v19 (F := Ideal) x1 j = Sat.lo (Sat.scaled (Spec.px x1 (j 0).val (j 1).val (j 2).val)) := by
  unfold val_main_v19
  refine (Host.reduce_eq_fold_single (α := EReal) (FloatOps.minimumf (F := Ideal) (φ := .f32)) (val_main_v17 (F := Ideal) x1) (val_main_cst_10 (F := Ideal))
    reducesTo_S32x3x512x512_S32x512x512_d1 hred h_S_ j).trans ?_
  unfold Sat.lo
  exact congrArg (fun f : Fin 3 → EReal => (Finset.univ : Finset (Fin 3)).fold min (Ideal.ofBits .f32 0x7F800000#32) f) (scaled1 x1 j)

/-- The first array's saturation at pixel `j`. -/
theorem sat0_apply (x0 : Spec.Arr) (j : S32x512x512.Idx) :
    val_main_v13 (F := Ideal) x0 j = Sat.satR (Spec.px x0 (j 0).val (j 1).val (j 2).val) := by
  rw [val_main_v13_apply, val_main_v11_apply, val_main_v12_apply, val_main_v6_apply, val_main_v9_apply, val_main_v8_apply,
    val_main_v10_apply, val_main_cst_5_apply, val_main_v7_apply, val_main_cst_3_apply, val_main_call0_v1_apply,
    val_main_call0_v0_apply, val_main_cst_4_apply, val_main_call1_v1_apply, val_main_call1_v0_apply, val_main_cst_6_apply,
    max0_apply, min0_apply]
  rfl

/-- The second array's saturation at pixel `j`. -/
theorem sat1_apply (x1 : Spec.Arr) (j : S32x512x512.Idx) :
    val_main_v27 (F := Ideal) x1 j = Sat.satR (Spec.px x1 (j 0).val (j 1).val (j 2).val) := by
  rw [val_main_v27_apply, val_main_v25_apply, val_main_v26_apply, val_main_v20_apply, val_main_v23_apply, val_main_v22_apply,
    val_main_v24_apply, val_main_cst_13_apply, val_main_v21_apply, val_main_cst_11_apply, val_main_call2_v1_apply,
    val_main_call2_v0_apply, val_main_cst_12_apply, val_main_call3_v1_apply, val_main_call3_v0_apply, val_main_cst_14_apply,
    max1_apply, min1_apply]
  rfl

/-- The summand at pixel `j`: |satR(g) - satR(t)|. -/
theorem diff_apply (x0 x1 : Spec.Arr) (j : S32x512x512.Idx) :
    val_main_v29 (F := Ideal) x0 x1 j = Spec.dR x0 x1 (j 0).val (j 1).val (j 2).val := by
  rw [val_main_v29_apply, val_main_v28_apply, sat0_apply, sat1_apply]
  rfl

/-- The sum of the summands over all pixels. -/
theorem sum_eq (x0 x1 : Spec.Arr) :
    ∑ j : S32x512x512.Idx, val_main_v29 (F := Ideal) x0 x1 j = Spec.sumR (Spec.dR x0 x1) := by
  unfold Spec.sumR
  exact Finset.sum_congr rfl fun j _ => diff_apply x0 x1 j

/-- THE REFERENCE'S RESULT: 1.0 · ((0 + the sum over all pixels) / 2^23). -/
theorem ref_eq (x0 x1 : Spec.Arr) :
    val_main_v32 (F := Ideal) x0 x1
      = fun _ => Ideal.ofBits .f32 0x3F800000#32
          * Ideal.div (Ideal.ofBits .f32 0x00000000#32 + Spec.sumR (Spec.dR x0 x1)) (Ideal.ofBits .f32 0x4B000000#32) := by
  funext i
  rw [val_main_v32_apply, val_main_cst_17_apply, val_main_v31_apply, val_main_cst_16_apply, val_main_v30_apply,
    val_main_cst_15_apply, sum_eq]
  generalize Spec.sumR (Spec.dR x0 x1) = S
  rfl

end Cert.ReferenceIdeal.RefValue

end
-- ==== Proof.Finite.lean ====
/-
  The precondition read back: every entry of both argument arrays is a real number.

  The precondition is jnp.all(|g| < +inf) & jnp.all(|t| < +inf). An "and" over all entries that is 1 had a 1 at every
  entry; an entry's 1 says |x| < +inf on the extended reals, where |x| = max x (-x); and both infinities have
  |x| = +inf, so x is a real.
-/
import proofs.«135027_j60035052863713_2_alg».proof.Pre_finite_inputs
import proofs.«135027_j60035052863713_2_alg».proof.Proof.Gen.Pre_finite_inputs
import proofs.«135027_j60035052863713_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic

namespace Cert.Finite

open Cert.Pre_finite_inputs Cert.Pre_finite_inputs.Facts

/-- The scalar shape has one index. -/
instance : Subsingleton S_.Idx := ⟨fun a b => funext fun d => d.elim0⟩

/-- A comparison "a < +inf" that answered 1 holds. -/
theorem lt_top_of_cmp (a : EReal) (e : Ideal.cmp .olt a ⊤ = 1#1) : a < ⊤ := by
  unfold Ideal.cmp at e
  by_contra h
  simp [h] at e

/-- An extended real whose absolute value is below +inf is a real. -/
theorem real_of_abs_lt_top (x : EReal) (h : max x (-x) < ⊤) : ∃ r : ℝ, x = (r : EReal) := by
  induction x using EReal.rec with
  | bot => simp at h
  | top => simp at h
  | coe r => exact ⟨r, rfl⟩

variable [Facts]

/-- One entry of the compared array being 1 makes that entry of the argument a real. -/
theorem elem (x : Spec.Arr) (i : S32x3x512x512.Idx)
    (e : cmpf (F := Ideal) .olt (Host.absf (F := Ideal) (φ := .f32) x)
      (broadcastInDim S32x3x512x512 ![] bcast_S_S32x3x512x512 (constant (F := Ideal) S_ .f32 0x7F800000#32)) i = 1#1) :
    ∃ r : ℝ, x i = (r : EReal) := by
  have hb : broadcastInDim S32x3x512x512 ![] bcast_S_S32x3x512x512 (constant (F := Ideal) S_ .f32 0x7F800000#32) i
      = Ideal.ofBits .f32 0x7F800000#32 :=
    broadcastInDim_apply _ bcast_S_S32x3x512x512 _ i (fun a => a.elim0) (fun a => a.elim0)
  have e' : Ideal.cmp .olt (max (x i) (-(x i))) (Ideal.ofBits .f32 0x7F800000#32) = 1#1 := by
    rw [← hb]; exact e
  rw [Consts.posInf] at e'
  exact real_of_abs_lt_top (x i) (lt_top_of_cmp _ e')

/-- THE PRECONDITION READ BACK: both arrays are real everywhere. -/
theorem finite_of_pre (x0 x1 : Spec.Arr) (h : fn (F := Ideal) x0 x1 = fun _ => 1#1) :
    (∀ i, ∃ r : ℝ, x0 i = (r : EReal)) ∧ (∀ i, ∃ r : ℝ, x1 i = (r : EReal)) := by
  have h' := congrFun h ValueIdx.ix0
  dsimp only [fn] at h'
  obtain ⟨ha, hb⟩ := IntOp.andi_eq_one.1 h'
  exact ⟨fun i => elem x0 i (Host.reduce_andi_all _ _ _ _ _ ha i), fun i => elem x1 i (Host.reduce_andi_all _ _ _ _ _ hb i)⟩

end Cert.Finite

end
-- ==== Proof.lean ====
/-
  The certificate's claims, assembled.

  Both programs compute, of two arrays g, t : [32, 3, 512, 512] of finite numbers, the mean over all 32·512·512 pixels of
  |saturation(g) - saturation(t)|. The kernel works on the raw channel values, block by block; the reference maps the
  channels through (x + 1)/2 first and sums in one sweep. On the extended reals:
    * per pixel the two forms of the saturation agree where the channel values are finite (the factor 1/2 cancels: a law
      of the reals) — this is where the precondition is used;
    * the two orders of summation give the same sum (addition of extended reals is commutative and associative);
    * the reference's 1.0 · (S / 2^23) and the kernel's (1.0 · S) / 2^23 agree because 1.0 denotes 1.
  The frames are the generated ones (the reference's: its run with the result dropped); the ideal pass rewrote nothing.
-/
import proofs.«135027_j60035052863713_2_alg».proof.Defs
import proofs.«135027_j60035052863713_2_alg».proof.Proof.Gen.Kernel
import proofs.«135027_j60035052863713_2_alg».proof.Proof.Gen.Kernel.Frame
import proofs.«135027_j60035052863713_2_alg».proof.Proof.Gen.KernelIdeal
import proofs.«135027_j60035052863713_2_alg».proof.Proof.Gen.KernelIdeal.Frame
import proofs.«135027_j60035052863713_2_alg».proof.Proof.Gen.ReferenceIdeal
import proofs.«135027_j60035052863713_2_alg».proof.Proof.Gen.Pre_finite_inputs
import proofs.«135027_j60035052863713_2_alg».proof.Proof.KernelRun
import proofs.«135027_j60035052863713_2_alg».proof.Proof.RefValue
import proofs.«135027_j60035052863713_2_alg».proof.Proof.Finite
import Idealize.ShloMosaic.Adequacy
import Idealize.ShloMosaic.Init

noncomputable section

namespace Cert.Proof

open Idealize.ShloMosaic Idealize.ShloMosaic.TcCoe Idealize.SL.Sem

/-- The two results agree on finite arrays: the per-pixel law, the reordering of the sum, and 1.0 = 1. -/
theorem results_eq (x y : Cert.Spec.Arr) (hx : ∀ i, ∃ r : ℝ, x i = (r : EReal)) (hy : ∀ i, ∃ r : ℝ, y i = (r : EReal)) :
    Ideal.ofBits .f32 0x3F800000#32
        * Ideal.div (Ideal.ofBits .f32 0x00000000#32 + Cert.Spec.sumR (Cert.Spec.dR x y)) (Ideal.ofBits .f32 0x4B000000#32)
      = Ideal.div (Ideal.ofBits .f32 0x3F800000#32
          * (Ideal.ofBits .f32 0x00000000#32 + Cert.Spec.sumK (Cert.Spec.dK x y))) (Ideal.ofBits .f32 0x4B000000#32) := by
  have hD : Cert.Spec.dK x y = Cert.Spec.dR x y := funext fun n => funext fun h => funext fun l => Cert.Spec.dK_eq_dR x y hx hy n h l
  rw [Cert.Spec.sum_reorder, hD, Cert.Consts.one, EReal.coe_one, one_mul, one_mul]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hy⟩ := Cert.Finite.finite_of_pre _ _ (hpre c)
  rw [Cert.ReferenceIdeal.ReadP.val_main_v32_eq, (hagree c).1, (hagree c).2, Cert.ReferenceIdeal.RefValue.ref_eq]
  funext i
  exact results_eq _ _ hx hy

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
